-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S6144x1024 : S_.BroadcastsInDim S6144x1024 (![] : Fin 0 → Fin S6144x1024.rank)
  reducesTo_S6144x1024_S_d0_1 : S6144x1024.ReducesTo [0, 1] S_
  bcast_S_S6144 : S_.BroadcastsInDim S6144 (![] : Fin 0 → Fin S6144.rank)
  reducesTo_S6144_S_d0 : S6144.ReducesTo [0] S_
  bcast_S_S5120x1024 : S_.BroadcastsInDim S5120x1024 (![] : Fin 0 → Fin S5120x1024.rank)
  reducesTo_S5120x1024_S_d0_1 : S5120x1024.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg4 : FVec F S6144 .f32) (main_arg5 : FVec F S5120x1024 .f32) (main_arg6 : FVec F S5120 .f32) (main_v13 : IVec S_ 1) (main_v16 : IVec S6144x1024 1) : IVec S_ 1 :=
  let main_c_5 : IVec S_ 1 := constantI S_ 1 1#1
  let main_v17 : IVec S_ 1 := (fun x v => Host.reduce IntOp.andi x v reducesTo_S6144x1024_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S5120x1024 .f32 := Host.absf main_arg5
  let main_cst_8 : FVec F S_ .f32 := constant S_ .f32 0x7F800000#32
  let main_v25 : FVec F S5120x1024 .f32 := broadcastInDim S5120x1024 ![] bcast_S_S5120x1024 main_cst_8
  let main_v26 : IVec S5120x1024 1 := cmpf .olt main_v24 main_v25
  let main_c_9 : IVec S_ 1 := constantI S_ 1 1#1
  let main_v27 : IVec S_ 1 := (fun x v => Host.reduce IntOp.andi x v reducesTo_S5120x1024_S_d0_1 h_S_) main_v26 main_c_9
  let main_v28 : IVec S_ 1 := andi main_v23 main_v27
  let main_v29 : FVec F S5120 .f32 := Host.absf main_arg6
  let main_cst_10 : FVec F S_ .f32 := constant S_ .f32 0x7F800000#32
  let main_v30 : FVec F S5120 .f32 := broadcastInDim S5120 ![] bcast_S_S5120 main_cst_10
  let main_v31 : IVec S5120 1 := cmpf .olt main_v29 main_v30
  let main_c_11 : IVec S_ 1 := constantI S_ 1 1#1
  let main_v32 : IVec S_ 1 := (fun x v => Host.reduce IntOp.andi x v reducesTo_S5120_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S6144x1024 .f32) (main_arg4 : FVec F S6144 .f32) (main_arg5 : FVec F S5120x1024 .f32) (main_arg6 : FVec F S5120 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S6144x1024 .f32 := Host.absf main_arg3
  let main_cst_4 : FVec F S_ .f32 := constant S_ .f32 0x7F800000#32
  let main_v15 : FVec F S6144x1024 .f32 := broadcastInDim S6144x1024 ![] bcast_S_S6144x1024 main_cst_4
  let main_v16 : IVec S6144x1024 1 := cmpf .olt main_v14 main_v15
  fn_part1 (F := F) main_arg4 main_arg5 main_arg6 main_v13 main_v16
-- ==== Kernel.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S1024x1024 : Shape := ⟨2, ![1024, 1024]⟩
abbrev S5x1024x1024 : Shape := ⟨3, ![5, 1024, 1024]⟩
abbrev S5x1024x2048 : Shape := ⟨3, ![5, 1024, 2048]⟩
abbrev S5120x2048 : Shape := ⟨2, ![5120, 2048]⟩
abbrev S1x5120 : Shape := ⟨2, ![1, 5120]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩
abbrev S1024x2048 : Shape := ⟨2, ![1024, 2048]⟩

abbrev nBuf : Space → Nat
  | .hbm => 22
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S6144x1024, .f32⟩
  | .hbm, ⟨4, _⟩ => ⟨S6144, .f32⟩
  | .hbm, ⟨5, _⟩ => ⟨S5120x1024, .f32⟩
  | .hbm, ⟨6, _⟩ => ⟨S5120, .f32⟩
  | .hbm, ⟨7, _⟩ => ⟨S6144x1024, .bf16⟩
  | .hbm, ⟨8, _⟩ => ⟨S5120x1024, .bf16⟩
  | .hbm, ⟨9, _⟩ => ⟨S5120x1024, .bf16⟩
  | .hbm, ⟨10, _⟩ => ⟨S1024x1024, .bf16⟩
  | .hbm, ⟨11, _⟩ => ⟨S5x1024x1024, .bf16⟩
  | .hbm, ⟨12, _⟩ => ⟨S5x1024x1024, .bf16⟩
  | .hbm, ⟨13, _⟩ => ⟨S5x1024x2048, .bf16⟩
  | .hbm, ⟨14, _⟩ => ⟨S5120x2048, .bf16⟩
  | .hbm, ⟨15, _⟩ => ⟨S5120, .f32⟩
  | .hbm, ⟨16, _⟩ => ⟨S5120, .f32⟩
  | .hbm, ⟨17, _⟩ => ⟨S1x5120, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S5120x2048, .bf16⟩
  | .local _ .vmem, ⟨7, _⟩ => ⟨S1x5120, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  slices_S6144x1024_S5120x1024_0_0 : S6144x1024.Slices ![0, 0] S5120x1024
  slices_S6144x1024_S1024x1024_5120_0 : S6144x1024.Slices ![5120, 0] S1024x1024
  shapeCasts_S5120x1024_S5x1024x1024 : S5120x1024.ShapeCasts S5x1024x1024
  concatenates_S5x1024x1024_S5x1024x1024_S5x1024x2048_d2 : Shape.Concatenates [S5x1024x1024, S5x1024x1024] S5x1024x2048 2
  shapeCasts_S5x1024x2048_S5120x2048 : S5x1024x2048.ShapeCasts S5120x2048
  slices_S6144_S5120_0 : S6144.Slices ![0] S5120
  shapeCasts_S5120_S1x5120 : S5120.ShapeCasts S1x5120
  slices_S6144_S1024_5120 : S6144.Slices ![5120] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S5120x2048_S1024x2048_0_0 : ∀ a, (![0, 0] : Fin 2 → Nat) a + S1024x2048.size a ≤ S5120x2048.size a
  h_S1024x2048 : 0 < S1024x2048.numel
  shapeCasts_S1024x2048_S1024x2048 : S1024x2048.ShapeCasts S1024x2048
  inb_S1x5120_S1x1024_0_0 : ∀ a, (![0, 0] : Fin 2 → Nat) a + S1x1024.size a ≤ S1x5120.size a
  h_S1x1024 : 0 < S1x1024.numel
  shapeCasts_S1x1024_S1x1024 : S1x1024.ShapeCasts S1x1024
  broadcasts_S1x1024_S256x1024 : S1x1024.Broadcasts S256x1024
  inb_S5120x2048_S1024x2048_2048_0 : ∀ a, (![2048, 0] : Fin 2 → Nat) a + S1024x2048.size a ≤ S5120x2048.size a
  inb_S1x5120_S1x1024_0_2048 : ∀ a, (![0, 2048] : Fin 2 → Nat) a + S1x1024.size a ≤ S1x5120.size a
  inb_S5120x2048_S1024x2048_1024_0 : ∀ a, (![1024, 0] : Fin 2 → Nat) a + S1024x2048.size a ≤ S5120x2048.size a
  inb_S1x5120_S1x1024_0_1024 : ∀ a, (![0, 1024] : Fin 2 → Nat) a + S1x1024.size a ≤ S1x5120.size a
  inb_S5120x2048_S1024x2048_3072_0 : ∀ a, (![3072, 0] : Fin 2 → Nat) a + S1024x2048.size a ≤ S5120x2048.size a
  inb_S1x5120_S1x1024_0_3072 : ∀ a, (![0, 3072] : Fin 2 → Nat) a + S1x1024.size a ≤ S1x5120.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  inb_S5120x2048_S1024x2048_4096_0 : ∀ a, (![4096, 0] : Fin 2 → Nat) a + S1024x2048.size a ≤ S5120x2048.size a
  inb_S1x5120_S1x1024_0_4096 : ∀ a, (![0, 4096] : Fin 2 → Nat) a + S1x1024.size a ≤ S1x5120.size a
  dot_S256x2048_S1024x2048_S256x1024_1_1_0_0_n_n_wf : DotDims.WF S256x2048 S1024x2048 S256x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5120x2048.size a ≤ S5120x2048.size a
  hwx0_3 : ∀ i : grid0.Coords, EltTy.bits .bf16 = 32 ∨ (Rect.block (s := S5120x2048) S5120x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5120.size a ≤ S1x5120.size a
  hwx0_4 : ∀ i : grid0.Coords, EltTy.bits .f32 = 32 ∨ (Rect.block (s := S1x5120) S1x5120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5120x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S1024x6144 : Shape := ⟨2, ![1024, 6144]⟩
abbrev S16384x6144 : Shape := ⟨2, ![16384, 6144]⟩
abbrev S1x6144 : Shape := ⟨2, ![1, 6144]⟩
abbrev S1024x5120 : Shape := ⟨2, ![1024, 5120]⟩
abbrev S16384x5120 : Shape := ⟨2, ![16384, 5120]⟩
abbrev S1x5120 : Shape := ⟨2, ![1, 5120]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S6144x1024, .f32⟩
  | .hbm, ⟨4, _⟩ => ⟨S6144, .f32⟩
  | .hbm, ⟨5, _⟩ => ⟨S5120x1024, .f32⟩
  | .hbm, ⟨6, _⟩ => ⟨S5120, .f32⟩
  | .hbm, ⟨7, _⟩ => ⟨S1024x6144, .f32⟩
  | .hbm, ⟨8, _⟩ => ⟨S16384x6144, .f32⟩
  | .hbm, ⟨9, _⟩ => ⟨S1x6144, .f32⟩
  | .hbm, ⟨10, _⟩ => ⟨S16384x6144, .f32⟩
  | .hbm, ⟨11, _⟩ => ⟨S16384x6144, .f32⟩
  | .hbm, ⟨12, _⟩ => ⟨S1024x5120, .f32⟩
  | .hbm, ⟨13, _⟩ => ⟨S16384x5120, .f32⟩
  | .hbm, ⟨14, _⟩ => ⟨S1x5120, .f32⟩
  | .hbm, ⟨15, _⟩ => ⟨S16384x5120, .f32⟩
  | .hbm, ⟨16, _⟩ => ⟨S16384x5120, .f32⟩
  | .hbm, ⟨17, _⟩ => ⟨S16384x5120, .f32⟩
  | .hbm, ⟨18, _⟩ => ⟨S16384x5120, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  transposes_S6144x1024_S1024x6144_1_0 : S6144x1024.Transposes [1, 0] S1024x6144
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  transposes_S5120x1024_S1024x5120_1_0 : S5120x1024.Transposes [1, 0] S1024x5120
  bcast_S5120_S1x5120_1 : S5120.BroadcastsInDim S1x5120 (![1] : Fin 1 → Fin S1x5120.rank)
  bcast_S1x5120_S16384x5120_0_1 : S1x5120.BroadcastsInDim S16384x5120 (![0, 1] : Fin 2 → Fin S16384x5120.rank)
  slices_S16384x6144_S16384x5120_0_0 : S16384x6144.Slices ![0, 0] S16384x5120
  slices_S16384x5120_S16384x1024_0_0 : S16384x5120.Slices ![0, 0] S16384x1024
  slices_S16384x5120_S16384x1024_0_1024 : S16384x5120.Slices ![0, 1024] S16384x1024
  slices_S16384x5120_S16384x1024_0_2048 : S16384x5120.Slices ![0, 2048] S16384x1024
  slices_S16384x5120_S16384x1024_0_3072 : S16384x5120.Slices ![0, 3072] S16384x1024
  slices_S16384x5120_S16384x1024_0_4096 : S16384x5120.Slices ![0, 4096] S16384x1024
  bcast_S_S16384x1024 : S_.BroadcastsInDim S16384x1024 (![] : Fin 0 → Fin S16384x1024.rank)
  slices_S16384x6144_S16384x1024_0_5120 : S16384x6144.Slices ![0, 5120] S16384x1024
  dot_S16384x1024_S1024x6144_S16384x6144_1_0_0_1_n_n_wf : DotDims.WF S16384x1024 S1024x6144 S16384x6144 [1] [0] [0] [1] [] []
  dot_S16384x1024_S1024x5120_S16384x5120_1_0_0_1_n_n_wf : DotDims.WF S16384x1024 S1024x5120 S16384x5120 [1] [0] [0] [1] [] []

variable [Facts₀]

def dot_S16384x1024_S1024x6144_S16384x6144_1_0_0_1_n_n : DotDims S16384x1024 S1024x6144 S16384x6144 where
  lhsContracting := [1]
  rhsContracting := [0]
  lhsNonContracting := [0]
  rhsNonContracting := [1]
  lhsBatch := []
  rhsBatch := []
  wf := dot_S16384x1024_S1024x6144_S16384x6144_1_0_0_1_n_n_wf
def dot_S16384x1024_S1024x5120_S16384x5120_1_0_0_1_n_n : DotDims S16384x1024 S1024x5120 S16384x5120 where
  lhsContracting := [1]
  rhsContracting := [0]
  lhsNonContracting := [0]
  rhsNonContracting := [1]
  lhsBatch := []
  rhsBatch := []
  wf := dot_S16384x1024_S1024x5120_S16384x5120_1_0_0_1_n_n_wf

class Facts : Prop extends Facts₀ where

variable [Facts]
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.LstmSpec.lean ====
/-
  A highway LSTM cell over the extended reals, entry by entry.

  For a batch row r and a hidden unit j, with x, h, c the input, the previous hidden state and the previous cell state,
  Wi (6H rows) and Ws (5H rows) the input-side and state-side weights and bi, bs their biases (H = 1024):

    pre(r, n)   = (Σ_k x(r,k)·Wi(n,k) + bi(n)) + (Σ_k h(r,k)·Ws(n,k) + bs(n))          for a gate row n below 5H
    memory(r,j) = σ(pre(r, j)) · tanh(pre(r, 2H + j)) + σ(pre(r, H + j)) · c(r, j)
    highway(r,j)= Σ_k x(r,k)·Wi(5H + j, k) + bi(5H + j)
    out(r,j)    = σ(pre(r, 4H + j)) · (σ(pre(r, 3H + j)) · tanh(memory(r,j))) + (1 − σ(pre(r, 4H + j))) · highway(r,j)

  with σ the logistic function 1/(1 + e^(−z)) on the extended reals. The gate rows are taken in five blocks of H rows:
  input gate, forget gate, candidate memory, output gate, highway gate.

  One law is proved here: a gate's pre-activation may be computed as ONE product over the 2H joined features
  [x | h] against the joined weight row [Wi(n,·) | Ws(n,·)] plus the summed bias bi(n) + bs(n). Splitting the sum over
  2H positions into its two halves and regrouping four summands uses only that addition of extended reals is
  commutative and associative, so it holds at the infinities as well and no finiteness of the inputs is needed.
-/
import Idealize.ShloMosaic.PureOps.Ideal
import Idealize.ShloMosaic.PureOps.IdealRules
import Idealize.ShloMosaic.Lib.ValueIdx
import proofs.«110209_j10565619549064_2_alg».proof.Proof.LibSplitSum

noncomputable section

open scoped BigOperators

namespace HighwayLstm

open Idealize.ShloMosaic Idealize.ShloMosaic.ValueIdx

/-- The product of row r of a batch matrix with row n of a weight matrix over the 1024 features. -/
def dotRow {B N : Nat} (x : FVec Ideal ⟨2, ![B, 1024]⟩ .f32) (W : FVec Ideal ⟨2, ![N, 1024]⟩ .f32) (r : Fin B) (n : Fin N) : EReal :=
  ∑ k : Fin 1024, x (ix2 r k) * W (ix2 n k)

/-- A gate row (below 5H) as a row of the 6H-row input-side weights. -/
def up (n : Fin 5120) : Fin 6144 := ⟨n.val, by have := n.isLt; omega⟩

/-- Row j of the block of H gate rows that starts at row o. -/
def gateRow (o : Nat) (ho : o + 1024 ≤ 5120) (j : Fin 1024) : Fin 5120 := ⟨o + j.val, by have := j.isLt; omega⟩

/-- Row j of the highway block of the input-side weights, the last H of their 6H rows. -/
def hwRow (j : Fin 1024) : Fin 6144 := ⟨5120 + j.val, by have := j.isLt; omega⟩

section
variable (x h c : FVec Ideal ⟨2, ![16384, 1024]⟩ .f32) (Wi : FVec Ideal ⟨2, ![6144, 1024]⟩ .f32) (bi : FVec Ideal ⟨1, ![6144]⟩ .f32)
  (Ws : FVec Ideal ⟨2, ![5120, 1024]⟩ .f32) (bs : FVec Ideal ⟨1, ![5120]⟩ .f32)

/-- The pre-activation of gate row n at batch row r: the input-side projection plus the state-side projection. -/
def pre (r : Fin 16384) (n : Fin 5120) : EReal :=
  (dotRow x Wi r (up n) + bi (ix1 (up n))) + (dotRow h Ws r n + bs (ix1 n))

/-- The new cell state at (r, j). -/
def memoryAt (r : Fin 16384) (j : Fin 1024) : EReal :=
  Ideal.logistic (pre x h Wi bi Ws bs r (gateRow 0 (by norm_num) j)) * Ideal.tanh (pre x h Wi bi Ws bs r (gateRow 2048 (by norm_num) j))
    + Ideal.logistic (pre x h Wi bi Ws bs r (gateRow 1024 (by norm_num) j)) * c (ix2 r j)

/-- The highway's linear term at (r, j). -/
def highwayAt (r : Fin 16384) (j : Fin 1024) : EReal :=
  dotRow x Wi r (hwRow j) + bi (ix1 (hwRow j))

/-- The cell's output at (r, j): the gated mix of the LSTM output and the highway's linear term. The constant 1 is kept as
    the float word both programs write. -/
def outAt (r : Fin 16384) (j : Fin 1024) : EReal :=
  Ideal.logistic (pre x h Wi bi Ws bs r (gateRow 4096 (by norm_num) j))
      * (Ideal.logistic (pre x h Wi bi Ws bs r (gateRow 3072 (by norm_num) j)) * Ideal.tanh (memoryAt x h c Wi bi Ws bs r j))
    + (Ideal.ofBits .f32 0x3F800000#32 - Ideal.logistic (pre x h Wi bi Ws bs r (gateRow 4096 (by norm_num) j))) * highwayAt x Wi bi r j

/-- The new cell state as a whole array. -/
def memory : FVec Ideal ⟨2, ![16384, 1024]⟩ .f32 := fun i => memoryAt x h c Wi bi Ws bs (i 0) (i 1)

/-- The output as a whole array. -/
def out : FVec Ideal ⟨2, ![16384, 1024]⟩ .f32 := fun i => outAt x h c Wi bi Ws bs (i 0) (i 1)

/-- A gate's pre-activation as ONE product over the 2H joined features plus the summed bias: if `xh` is row r of [x | h]
    and `wg` is the joined weight row [Wi(n,·) | Ws(n,·)], then Σ_{k<2H} xh(k)·wg(k) + (bi(n) + bs(n)) is `pre r n`. -/
theorem fused_eq_pre (r : Fin 16384) (n : Fin 5120) (xh wg : Fin 2048 → EReal)
    (hxl : ∀ k : Fin 1024, xh ⟨k.val, by have := k.isLt; omega⟩ = x (ix2 r k))
    (hxr : ∀ k : Fin 1024, xh ⟨1024 + k.val, by have := k.isLt; omega⟩ = h (ix2 r k))
    (hwl : ∀ k : Fin 1024, wg ⟨k.val, by have := k.isLt; omega⟩ = Wi (ix2 (up n) k))
    (hwr : ∀ k : Fin 1024, wg ⟨1024 + k.val, by have := k.isLt; omega⟩ = Ws (ix2 n k)) :
    (∑ k : Fin 2048, xh k * wg k) + (bi (ix1 (up n)) + bs (ix1 n)) = pre x h Wi bi Ws bs r n := by
  rw [SplitSum.sum_eq_add_of_blocks (K₁ := 1024) (K₂ := 1024) rfl (fun k => xh k * wg k)
    (fun k => x (ix2 r k) * Wi (ix2 (up n) k)) (fun k => h (ix2 r k) * Ws (ix2 n k))
    (fun k => by rw [hxl, hwl]) (fun k => by rw [hxr, hwr])]
  exact add_add_add_comm _ _ _ _

end

/-- The logistic function written out with the float word of 1, as a program that expands it writes it. -/
theorem logistic_spelled (z : EReal) :
    Ideal.div (Ideal.ofBits .f32 0x3F800000#32) (Ideal.ofBits .f32 0x3F800000#32 + Ideal.exp (-z)) = Ideal.logistic z := by
  rw [show Ideal.ofBits .f32 0x3F800000#32 = (1 : EReal) from IdealRules.sign_bit.ideal_onePat .f32]
  rfl

end HighwayLstm

end
-- ==== Proof.RefIsLstm.lean ====
/-
  The reference program computes the highway LSTM cell of LstmSpec, entry by entry.

  Read one operation at a time: the two projections x·Wiᵀ + bi and h·Wsᵀ + bs are products over the 1024 features plus a
  bias spread down the rows; their sum over the first 5H columns is the gate pre-activation `pre`; the five column blocks of
  H are the five gates; each logistic is written out as 1/(1 + e^(−z)) with the float word of 1, which is the logistic
  function on the extended reals; the last H columns of the input-side projection are the highway's linear term.
-/
import proofs.«110209_j10565619549064_2_alg».proof.Proof.Gen.ReferenceIdeal.Read
import proofs.«110209_j10565619549064_2_alg».proof.Proof.LstmSpec

noncomputable section

open scoped BigOperators

namespace Cert.ReferenceIdeal.RefValue

open Cert.ReferenceIdeal Cert.ReferenceIdeal.Gen Cert.ReferenceIdeal.Read Idealize.ShloMosaic Idealize.ShloMosaic.ValueIdx HighwayLstm

variable (x0 x1 x2 : (⟨S16384x1024, .f32⟩ : BufTy).Contents (Elt Ideal)) (x3 : (⟨S6144x1024, .f32⟩ : BufTy).Contents (Elt Ideal))
  (x4 : (⟨S6144, .f32⟩ : BufTy).Contents (Elt Ideal)) (x5 : (⟨S5120x1024, .f32⟩ : BufTy).Contents (Elt Ideal))
  (x6 : (⟨S5120, .f32⟩ : BufTy).Contents (Elt Ideal))

/-- The input-side projection x·Wiᵀ + bi at (r, n): the product over the features plus the bias of row n. -/
theorem projIn_apply (r : Fin 16384) (n : Fin 6144) :
    val_main_v4 (F := Ideal) x0 x3 x4 (ix2 r n) = dotRow x0 x3 r n + x4 (ix1 n) := by
  rw [val_main_v4_apply, val_main_v1_apply, val_main_v3_apply, val_main_v2_apply]
  simp only [val_main_v0_apply]
  have e1 : ∀ k : Fin 1024, lidx_main_v1 (ix2 r n) k = ix2 r k := fun k => funext fun a => match a with | ⟨0, _⟩ => rfl | ⟨1, _⟩ => rfl
  have e2 : ∀ k : Fin 1024, idx_main_v0 (ridx_main_v1 (ix2 r n) k) = ix2 n k := fun k => funext fun a => match a with | ⟨0, _⟩ => rfl | ⟨1, _⟩ => rfl
  have e3 : idx_main_v2 (idx_main_v3 (ix2 r n)) = ix1 n := funext fun a => match a with | ⟨0, _⟩ => rfl
  simp only [e1, e2, e3]
  rfl

/-- The state-side projection h·Wsᵀ + bs at (r, n). -/
theorem projSt_apply (r : Fin 16384) (n : Fin 5120) :
    val_main_v9 (F := Ideal) x1 x5 x6 (ix2 r n) = dotRow x1 x5 r n + x6 (ix1 n) := by
  rw [val_main_v9_apply, val_main_v6_apply, val_main_v8_apply, val_main_v7_apply]
  simp only [val_main_v5_apply]
  have e1 : ∀ k : Fin 1024, lidx_main_v6 (ix2 r n) k = ix2 r k := fun k => funext fun a => match a with | ⟨0, _⟩ => rfl | ⟨1, _⟩ => rfl
  have e2 : ∀ k : Fin 1024, idx_main_v5 (ridx_main_v6 (ix2 r n) k) = ix2 n k := fun k => funext fun a => match a with | ⟨0, _⟩ => rfl | ⟨1, _⟩ => rfl
  have e3 : idx_main_v7 (idx_main_v8 (ix2 r n)) = ix1 n := funext fun a => match a with | ⟨0, _⟩ => rfl
  simp only [e1, e2, e3]
  rfl

/-- The fused gate pre-activations: the first 5H columns of the input-side projection plus the state-side projection. -/
theorem fused_apply (r : Fin 16384) (n : Fin 5120) :
    val_main_v11 (F := Ideal) x0 x1 x3 x4 x5 x6 (ix2 r n) = pre x0 x1 x3 x4 x5 x6 r n := by
  rw [val_main_v11_apply, val_main_v10_apply,
    show idx_main_v10 (ix2 r n) = ix2 r (up n) from funext fun a => match a with | ⟨0, _⟩ => rfl | ⟨1, _⟩ => rfl,
    projIn_apply, projSt_apply]
  rfl

/-- The input gate's columns. -/
theorem gateI_apply (r : Fin 16384) (j : Fin 1024) :
    val_main_v12 (F := Ideal) x0 x1 x3 x4 x5 x6 (ix2 r j) = pre x0 x1 x3 x4 x5 x6 r (gateRow 0 (by norm_num) j) := by
  rw [val_main_v12_apply, show idx_main_v12 (ix2 r j) = ix2 r (gateRow 0 (by norm_num) j) from
    funext fun a => match a with | ⟨0, _⟩ => rfl | ⟨1, _⟩ => Fin.ext (by show j.val = 0 + j.val; omega), fused_apply]

/-- The forget gate's columns. -/
theorem gateF_apply (r : Fin 16384) (j : Fin 1024) :
    val_main_v13 (F := Ideal) x0 x1 x3 x4 x5 x6 (ix2 r j) = pre x0 x1 x3 x4 x5 x6 r (gateRow 1024 (by norm_num) j) := by
  rw [val_main_v13_apply, show idx_main_v13 (ix2 r j) = ix2 r (gateRow 1024 (by norm_num) j) from
    funext fun a => match a with | ⟨0, _⟩ => rfl | ⟨1, _⟩ => rfl, fused_apply]

/-- The candidate memory's columns. -/
theorem gateM_apply (r : Fin 16384) (j : Fin 1024) :
    val_main_v14 (F := Ideal) x0 x1 x3 x4 x5 x6 (ix2 r j) = pre x0 x1 x3 x4 x5 x6 r (gateRow 2048 (by norm_num) j) := by
  rw [val_main_v14_apply, show idx_main_v14 (ix2 r j) = ix2 r (gateRow 2048 (by norm_num) j) from
    funext fun a => match a with | ⟨0, _⟩ => rfl | ⟨1, _⟩ => rfl, fused_apply]

/-- The output gate's columns. -/
theorem gateO_apply (r : Fin 16384) (j : Fin 1024) :
    val_main_v15 (F := Ideal) x0 x1 x3 x4 x5 x6 (ix2 r j) = pre x0 x1 x3 x4 x5 x6 r (gateRow 3072 (by norm_num) j) := by
  rw [val_main_v15_apply, show idx_main_v15 (ix2 r j) = ix2 r (gateRow 3072 (by norm_num) j) from
    funext fun a => match a with | ⟨0, _⟩ => rfl | ⟨1, _⟩ => rfl, fused_apply]

/-- The highway gate's columns. -/
theorem gateH_apply (r : Fin 16384) (j : Fin 1024) :
    val_main_v16 (F := Ideal) x0 x1 x3 x4 x5 x6 (ix2 r j) = pre x0 x1 x3 x4 x5 x6 r (gateRow 4096 (by norm_num) j) := by
  rw [val_main_v16_apply, show idx_main_v16 (ix2 r j) = ix2 r (gateRow 4096 (by norm_num) j) from
    funext fun a => match a with | ⟨0, _⟩ => rfl | ⟨1, _⟩ => rfl, fused_apply]

/-- The input gate: the written-out logistic of its pre-activation. -/
theorem sigI_apply (r : Fin 16384) (j : Fin 1024) :
    val_main_v22 (F := Ideal) x0 x1 x3 x4 x5 x6 (ix2 r j) = Ideal.logistic (pre x0 x1 x3 x4 x5 x6 r (gateRow 0 (by norm_num) j)) := by
  rw [val_main_v22_apply, val_main_v21_apply, val_main_cst_0_apply, val_main_v20_apply, val_main_v19_apply, val_main_cst_apply,
    val_main_v18_apply, val_main_v17_apply, gateI_apply]
  exact logistic_spelled _

/-- The forget gate. -/
theorem sigF_apply (r : Fin 16384) (j : Fin 1024) :
    val_main_v28 (F := Ideal) x0 x1 x3 x4 x5 x6 (ix2 r j) = Ideal.logistic (pre x0 x1 x3 x4 x5 x6 r (gateRow 1024 (by norm_num) j)) := by
  rw [val_main_v28_apply, val_main_v27_apply, val_main_cst_2_apply, val_main_v26_apply, val_main_v25_apply, val_main_cst_1_apply,
    val_main_v24_apply, val_main_v23_apply, gateF_apply]
  exact logistic_spelled _

/-- The output gate. -/
theorem sigO_apply (r : Fin 16384) (j : Fin 1024) :
    val_main_v35 (F := Ideal) x0 x1 x3 x4 x5 x6 (ix2 r j) = Ideal.logistic (pre x0 x1 x3 x4 x5 x6 r (gateRow 3072 (by norm_num) j)) := by
  rw [val_main_v35_apply, val_main_v34_apply, val_main_cst_4_apply, val_main_v33_apply, val_main_v32_apply, val_main_cst_3_apply,
    val_main_v31_apply, val_main_v30_apply, gateO_apply]
  exact logistic_spelled _

/-- The highway gate. -/
theorem sigH_apply (r : Fin 16384) (j : Fin 1024) :
    val_main_v41 (F := Ideal) x0 x1 x3 x4 x5 x6 (ix2 r j) = Ideal.logistic (pre x0 x1 x3 x4 x5 x6 r (gateRow 4096 (by norm_num) j)) := by
  rw [val_main_v41_apply, val_main_v40_apply, val_main_cst_6_apply, val_main_v39_apply, val_main_v38_apply, val_main_cst_5_apply,
    val_main_v37_apply, val_main_v36_apply, gateH_apply]
  exact logistic_spelled _

/-- The new cell state at (r, j). -/
theorem memory_apply (r : Fin 16384) (j : Fin 1024) :
    val_main_v44 (F := Ideal) x0 x1 x2 x3 x4 x5 x6 (ix2 r j) = memoryAt x0 x1 x2 x3 x4 x5 x6 r j := by
  rw [val_main_v44_apply, val_main_v42_apply, val_main_v43_apply, sigI_apply, val_main_v29_apply, gateM_apply, sigF_apply]
  rfl

/-- The highway's linear term: the last H columns of the input-side projection. -/
theorem highway_apply (r : Fin 16384) (j : Fin 1024) :
    val_main_v47 (F := Ideal) x0 x3 x4 (ix2 r j) = highwayAt x0 x3 x4 r j := by
  rw [val_main_v47_apply, show idx_main_v47 (ix2 r j) = ix2 r (hwRow j) from
    funext fun a => match a with | ⟨0, _⟩ => rfl | ⟨1, _⟩ => rfl, projIn_apply]
  rfl

/-- The output at (r, j). -/
theorem out_apply (r : Fin 16384) (j : Fin 1024) :
    val_main_v52 (F := Ideal) x0 x1 x2 x3 x4 x5 x6 (ix2 r j) = outAt x0 x1 x2 x3 x4 x5 x6 r j := by
  rw [val_main_v52_apply, val_main_v48_apply, val_main_v46_apply, val_main_v45_apply, memory_apply, val_main_v51_apply,
    val_main_v50_apply, val_main_v49_apply, val_main_cst_7_apply, highway_apply, sigH_apply, sigO_apply]
  rfl

/-- The reference's second result is the new cell state of the specification. -/
theorem memory_eq : val_main_v44 (F := Ideal) x0 x1 x2 x3 x4 x5 x6 = memory x0 x1 x2 x3 x4 x5 x6 := by
  funext i
  obtain ⟨r, j, rfl⟩ : ∃ (r : Fin 16384) (j : Fin 1024), i = ix2 r j := ⟨i 0, i 1, eq_ix2 i⟩
  exact memory_apply x0 x1 x2 x3 x4 x5 x6 r j

/-- The reference's first result is the output of the specification. -/
theorem out_eq : val_main_v52 (F := Ideal) x0 x1 x2 x3 x4 x5 x6 = out x0 x1 x2 x3 x4 x5 x6 := by
  funext i
  obtain ⟨r, j, rfl⟩ : ∃ (r : Fin 16384) (j : Fin 1024), i = ix2 r j := ⟨i 0, i 1, eq_ix2 i⟩
  exact out_apply x0 x1 x2 x3 x4 x5 x6 r j

end Cert.ReferenceIdeal.RefValue

end
-- ==== Proof.LibRowsDot.lean ====
/-
  A matrix product whose dimension numbers contract the LAST axis of BOTH operands, with no batch axis — rows of the left
  operand against rows of the right one, x · wᵀ for x : [M, K] and w : [N, K] — read at an index. For such a record the left
  operand is read at (row, k) and the right at (column, k), so at the extended reals a product into the zero accumulator is
  the sum over k of x(row, k) · w(column, k), in any order and grouping (addition of extended reals is commutative and
  associative). Nothing here depends on a program: the record's coordinate facts are hypotheses, which each use site proves
  from its own record by unfolding.
-/
import Idealize.ShloMosaic.Lib.ValueIdx
import Idealize.ShloMosaic.PureOps.Ideal.Laws

noncomputable section

open scoped BigOperators

namespace RowsDot

open Idealize.ShloMosaic Idealize.ShloMosaic.ValueIdx

/-- The dimension numbers `D` are those of a rows-against-rows [M, K] × [N, K] product: one contracted axis of extent K;
    the left operand read at (row of the result, contraction position) and the right at (column of the result,
    contraction position). -/
structure IsRowsByRows {M K N : Nat} (D : DotDims ⟨2, ![M, K]⟩ ⟨2, ![N, K]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (i 1).val
  rhs1 : ∀ (i : (⟨2, ![M, N]⟩ : Shape).Idx) (q : D.contr.Idx), (D.rhsIdx i q 1).val = (q ⟨0, by omega⟩).val

variable {M K N : Nat} {φ₁ φ₂ : FTy}

/-- The left operand's index at result index (r, j) and contraction position k is (r, k). -/
theorem IsRowsByRows.lhsIdx_eq {D : DotDims ⟨2, ![M, K]⟩ ⟨2, ![N, K]⟩ ⟨2, ![M, N]⟩} (h : IsRowsByRows D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

/-- The right operand's index at result index (r, j) and contraction position k is (j, k). -/
theorem IsRowsByRows.rhsIdx_eq {D : DotDims ⟨2, ![M, K]⟩ ⟨2, ![N, K]⟩ ⟨2, ![M, N]⟩} (h : IsRowsByRows D) (r : Fin M) (j : Fin N) (k : Fin K) :
    D.rhsIdx (ix2 r j) ((contrEquiv1 D K h.rank h.size).symm k) = ix2 j k :=
  funext fun a => Fin.ext (by
    match a with
    | ⟨0, _⟩ => exact h.rhs0 _ _
    | ⟨1, _⟩ => exact (h.rhs1 _ _).trans (contrEquiv1_symm_val D K h.rank h.size k))

/-- A rows-against-rows product into the zero accumulator, at the extended reals, read at (r, j): the sum over the
    contracted axis of x(r, k) · w(j, k). -/
theorem matmul_zero_apply (D : DotDims ⟨2, ![M, K]⟩ ⟨2, ![N, K]⟩ ⟨2, ![M, N]⟩) (h : IsRowsByRows D) (prec : Option ContractPrecision)
    (x : FVec Ideal ⟨2, ![M, K]⟩ φ₁) (w : FVec Ideal ⟨2, ![N, K]⟩ φ₂) (r : Fin M) (j : Fin N) :
    FloatOps.matmul D prec x w (constant (F := Ideal) ⟨2, ![M, N]⟩ .f32 0x00000000#32) (ix2 r j)
      = ∑ k : Fin K, x (ix2 r k) * w (ix2 j k) := by
  rw [Ideal.matmul_constant_zero_apply, ← Equiv.sum_comp (contrEquiv1 D K h.rank h.size).symm]
  refine Finset.sum_congr rfl fun k _ => ?_
  rw [h.lhsIdx_eq r j k, h.rhsIdx_eq r j k]

end RowsDot

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.LibRectLoad.lean ====
/-
  A load through a rectangle of consecutive rows and columns of a matrix, read at an index: the m0 × m1 rectangle at
  offsets (o0, o1) of an n0 × n1 matrix holds, at (p, q), the matrix's entry (o0 + p, o1 + q). General over the extents, the
  offsets and the element values; nothing here depends on a program.
-/
import Idealize.ShloMosaic.Lib.Pipeline.Value
import Idealize.ShloMosaic.Lib.ValueIdx

namespace RectLoad

open Idealize.ShloMosaic Idealize.ShloMosaic.ValueIdx

/-- A load of the m0 × m1 unit-stride rectangle at offsets (o0, o1) of a matrix reads, at (p, q), the matrix at
    (o0 + p, o1 + q). -/
theorem ld_rect_apply {Val : EltTy → Type} {n0 n1 m0 m1 : Nat} {e : EltTy} (X : (⟨2, ![n0, n1]⟩ : Shape).Idx → Val e) (o0 o1 : Nat)
    (inb : ∀ a, (![o0, o1] : Fin 2 → Nat) a + (![m0, m1] : Fin 2 → Nat) a ≤ (⟨2, ![n0, n1]⟩ : Shape).size a)
    (p : Fin m0) (q : Fin m1) (p' : Fin n0) (q' : Fin n1) (hp : p'.val = o0 + p.val) (hq : q'.val = o1 + q.val) :
    (View.ld X (Rect.unit (s := ⟨2, ![n0, n1]⟩) ![o0, o1] ![m0, m1] inb) : (⟨2, ![m0, m1]⟩ : Shape).Idx → Val e) (ix2 p q) = X (ix2 p' q') := by
  show X ((Rect.unit (s := ⟨2, ![n0, n1]⟩) ![o0, o1] ![m0, m1] inb).idx (ix2 p q)) = X (ix2 p' q')
  refine congrArg X (funext fun a => Fin.ext ?_)
  match a with
  | ⟨0, _⟩ => show o0 + 1 * p.val = p'.val; omega
  | ⟨1, _⟩ => show o1 + 1 * q.val = q'.val; omega

end RectLoad
-- ==== Proof.KernelTile.lean ====
/-
  One grid point of the kernel, entry by entry, over the extended reals.

  A point holds 256 batch rows. Its body joins the rows' x and h blocks side by side into [x | h] (2H features), and for each
  of the five gates multiplies that against a block of H rows of the joined weights (rows o … o + H − 1 of the 5H-row matrix,
  o the gate's offset) and adds the matching H entries of the summed bias, spread down the rows:
      tilePre(p, q) = Σ_{k<2H} [x | h](p, k) · wg(o + q, k) + bg(o + q).
  The new cell state of the tile is σ(input)·tanh(candidate) + σ(forget)·c, and the output mixes σ(output)·tanh(state) with
  the highway's linear term x·wihwᵀ + bihw through the highway gate. Each matrix product contracts the last axis of both
  operands into a zero accumulator, so at the extended reals it is the plain sum over the contracted axis; a change of
  float format is the identity there.
-/
import proofs.«110209_j10565619549064_2_alg».proof.Proof.Gen.KernelIdeal.Frame
import proofs.«110209_j10565619549064_2_alg».proof.Proof.LibRowsDot
import proofs.«110209_j10565619549064_2_alg».proof.Proof.LibJoinLayout
import proofs.«110209_j10565619549064_2_alg».proof.Proof.LibRectLoad
import proofs.«110209_j10565619549064_2_alg».proof.Proof.LstmSpec
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx HighwayLstm

/-! ## The two matrix products contract the last axis of both operands -/

theorem rows2048 : RowsDot.IsRowsByRows dot_S256x2048_S1024x2048_S256x1024_1_1_0_0_n_n where
  rank := rfl
  size := rfl
  lhs0 := fun i q => by
    unfold DotDims.lhsIdx
    rw [dif_neg (show ¬(0 : Fin S256x2048.rank) ∈ dot_S256x2048_S1024x2048_S256x1024_1_1_0_0_n_n.lhsBatch by decide),
      dif_pos (show (0 : Fin S256x2048.rank) ∈ dot_S256x2048_S1024x2048_S256x1024_1_1_0_0_n_n.lhsNonContracting by decide)]
    rfl
  lhs1 := fun i q => dot_S256x2048_S1024x2048_S256x1024_1_1_0_0_n_n.lhsIdx_val_of_single rfl i q
  rhs0 := fun i q => by
    unfold DotDims.rhsIdx
    rw [dif_neg (show ¬(0 : Fin S1024x2048.rank) ∈ dot_S256x2048_S1024x2048_S256x1024_1_1_0_0_n_n.rhsBatch by decide),
      dif_pos (show (0 : Fin S1024x2048.rank) ∈ dot_S256x2048_S1024x2048_S256x1024_1_1_0_0_n_n.rhsNonContracting by decide)]
    rfl
  rhs1 := fun i q => dot_S256x2048_S1024x2048_S256x1024_1_1_0_0_n_n.rhsIdx_val_of_single rfl i q

theorem rows1024 : RowsDot.IsRowsByRows dot_S256x1024_S1024x1024_S256x1024_1_1_0_0_n_n where
  rank := rfl
  size := rfl
  lhs0 := fun i q => by
    unfold DotDims.lhsIdx
    rw [dif_neg (show ¬(0 : Fin S256x1024.rank) ∈ dot_S256x1024_S1024x1024_S256x1024_1_1_0_0_n_n.lhsBatch by decide),
      dif_pos (show (0 : Fin S256x1024.rank) ∈ dot_S256x1024_S1024x1024_S256x1024_1_1_0_0_n_n.lhsNonContracting by decide)]
    rfl
  lhs1 := fun i q => dot_S256x1024_S1024x1024_S256x1024_1_1_0_0_n_n.lhsIdx_val_of_single rfl i q
  rhs0 := fun i q => by
    unfold DotDims.rhsIdx
    rw [dif_neg (show ¬(0 : Fin S1024x1024.rank) ∈ dot_S256x1024_S1024x1024_S256x1024_1_1_0_0_n_n.rhsBatch by decide),
      dif_pos (show (0 : Fin S1024x1024.rank) ∈ dot_S256x1024_S1024x1024_S256x1024_1_1_0_0_n_n.rhsNonContracting by decide)]
    rfl
  rhs1 := fun i q => dot_S256x1024_S1024x1024_S256x1024_1_1_0_0_n_n.rhsIdx_val_of_single rfl i q

/-! ## One gate's pre-activation on the tile -/

/-- The pre-activation of the gate whose H weight rows start at row o, at entry (p, q) of the tile: the joined features of
    row p against joined weight row o + q, plus the summed bias at o + q. -/
def tilePre (xh : FVec Ideal S256x2048 .bf16) (x3 : Vec Ideal S5120x2048 .bf16) (x4 : Vec Ideal S1x5120 .f32)
    (o : Nat) (ho : o + 1024 ≤ 5120) (p : Fin 256) (q : Fin 1024) : EReal :=
  (∑ k : Fin 2048, xh (ix2 p k) * x3 (ix2 (gateRow o ho q) k)) + x4 (ix2 (0 : Fin 1) (gateRow o ho q))

/-- The body's product of the joined features with a loaded block of H weight rows, plus the loaded block of H bias
    entries spread down the rows, is `tilePre` at every entry. -/
theorem gate_tile (xh : FVec Ideal S256x2048 .bf16) (x3 : Vec Ideal S5120x2048 .bf16) (x4 : Vec Ideal S1x5120 .f32)
    (o : Nat) (ho : o + 1024 ≤ 5120)
    (inb3 : ∀ a, (![o, 0] : Fin 2 → Nat) a + S1024x2048.size a ≤ S5120x2048.size a)
    (inb4 : ∀ a, (![0, o] : Fin 2 → Nat) a + S1x1024.size a ≤ S1x5120.size a)
    (hc3 : S1024x2048.ShapeCasts S1024x2048) (hc4 : S1x1024.ShapeCasts S1x1024) (hb : S1x1024.Broadcasts S256x1024)
    (p : Fin 256) (q : Fin 1024) :
    addf (matmul (φ₁ := .bf16) (φ₂ := .bf16) dot_S256x2048_S1024x2048_S256x1024_1_1_0_0_n_n none xh
          (shapeCast (α := Ideal .bf16) S1024x2048 (View.ld x3 (Rect.unit (s := S5120x2048) ![o, 0] S1024x2048.size inb3) : Vec Ideal S1024x2048 .bf16) hc3)
          (constant S256x1024 .f32 0x00000000#32))
        (broadcastTo S256x1024 (shapeCast (α := Ideal .f32) S1x1024 (View.ld x4 (Rect.unit (s := S1x5120) ![0, o] S1x1024.size inb4) : Vec Ideal S1x1024 .f32) hc4) hb)
        (ix2 p q)
      = tilePre xh x3 x4 o ho p q := by
  rw [addf_apply]
  unfold tilePre
  refine congrArg₂ (· + ·) ?_ ?_
  · refine (RowsDot.matmul_zero_apply _ rows2048 none xh _ p q).trans (Finset.sum_congr rfl fun k _ => ?_)
    exact congrArg (xh (ix2 p k) * ·) ((congrFun (shapeCast_self (s := S1024x2048) _ hc3) (ix2 q k)).trans
      (RectLoad.ld_rect_apply (Val := Elt Ideal) (e := .bf16) x3 o 0 inb3 q k (gateRow o ho q) k rfl (by omega)))
  · exact ((broadcastTo_1b_ab_apply _ hb p q).trans (congrFun (shapeCast_self (s := S1x1024) _ hc4) (ix2 (0 : Fin 1) q))).trans
      (RectLoad.ld_rect_apply (Val := Elt Ideal) (e := .f32) x4 0 o inb4 (0 : Fin 1) q (0 : Fin 1) (gateRow o ho q) rfl rfl)

/-- The highway's linear term on the tile: row p of x against weight row q, plus the bias at q. -/
def tileHighway (x0 : Vec Ideal S256x1024 .f32) (x5 : Vec Ideal S1024x1024 .bf16) (x6 : Vec Ideal S1x1024 .f32) (p : Fin 256) (q : Fin 1024) : EReal :=
  (∑ k : Fin 1024, x0 (ix2 p k) * x5 (ix2 q k)) + x6 (ix2 (0 : Fin 1) q)

theorem highway_tile (xb : FVec Ideal S256x1024 .bf16) (x5 : Vec Ideal S1024x1024 .bf16) (x6 : Vec Ideal S1x1024 .f32)
    (inb5 : ∀ a, (![0, 0] : Fin 2 → Nat) a + S1024x1024.size a ≤ S1024x1024.size a)
    (inb6 : ∀ a, (![0, 0] : Fin 2 → Nat) a + S1x1024.size a ≤ S1x1024.size a)
    (hc5 : S1024x1024.ShapeCasts S1024x1024) (hc6 : S1x1024.ShapeCasts S1x1024) (hb : S1x1024.Broadcasts S256x1024)
    (p : Fin 256) (q : Fin 1024) :
    addf (matmul (φ₁ := .bf16) (φ₂ := .bf16) dot_S256x1024_S1024x1024_S256x1024_1_1_0_0_n_n none xb
          (shapeCast (α := Ideal .bf16) S1024x1024 (View.ld x5 (Rect.unit (s := S1024x1024) ![0, 0] S1024x1024.size inb5) : Vec Ideal S1024x1024 .bf16) hc5)
          (constant S256x1024 .f32 0x00000000#32))
        (broadcastTo S256x1024 (shapeCast (α := Ideal .f32) S1x1024 (View.ld x6 (Rect.unit (s := S1x1024) ![0, 0] S1x1024.size inb6) : Vec Ideal S1x1024 .f32) hc6) hb)
        (ix2 p q)
      = (∑ k : Fin 1024, xb (ix2 p k) * x5 (ix2 q k)) + x6 (ix2 (0 : Fin 1) q) := by
  rw [addf_apply]
  refine congrArg₂ (· + ·) ?_ ?_
  · refine (RowsDot.matmul_zero_apply _ rows1024 none xb _ p q).trans (Finset.sum_congr rfl fun k _ => ?_)
    exact congrArg (xb (ix2 p k) * ·) ((congrFun (shapeCast_self (s := S1024x1024) _ hc5) (ix2 q k)).trans
      (RectLoad.ld_rect_apply (Val := Elt Ideal) (e := .bf16) x5 0 0 inb5 q k q k (by omega) (by omega)))
  · exact ((broadcastTo_1b_ab_apply _ hb p q).trans (congrFun (shapeCast_self (s := S1x1024) _ hc6) (ix2 (0 : Fin 1) q))).trans
      (RectLoad.ld_rect_apply (Val := Elt Ideal) (e := .f32) x6 0 0 inb6 (0 : Fin 1) q (0 : Fin 1) q rfl (by omega))

/-! ## The joined features -/

/-- The first H joined features of row p are x's. -/
theorem joined_left (x0 x1 : Vec Ideal S256x1024 .f32) (p : Fin 256) (k : Fin 1024) :
    k0_pay3 x0 x1 (ix2 p (⟨k.val, by have := k.isLt; omega⟩ : Fin 2048)) = x0 (ix2 p k) := by
  unfold k0_pay3 k0_pay2
  exact JoinLayout.concatenate_cols_left _ _ _ p ⟨k.val, by have := k.isLt; omega⟩ k rfl

/-- The last H joined features of row p are h's. -/
theorem joined_right (x0 x1 : Vec Ideal S256x1024 .f32) (p : Fin 256) (k : Fin 1024) :
    k0_pay3 x0 x1 (ix2 p (⟨1024 + k.val, by have := k.isLt; omega⟩ : Fin 2048)) = x1 (ix2 p k) := by
  unfold k0_pay3 k0_pay2
  exact JoinLayout.concatenate_cols_right _ _ _ p ⟨1024 + k.val, by have := k.isLt; omega⟩ k (Nat.add_comm _ _)

/-! ## The two stored tiles -/

/-- The new cell state on the tile. -/
def memTile (x0 x1 x2 : Vec Ideal S256x1024 .f32) (x3 : Vec Ideal S5120x2048 .bf16) (x4 : Vec Ideal S1x5120 .f32) (p : Fin 256) (q : Fin 1024) : EReal :=
  Ideal.logistic (tilePre (k0_pay3 x0 x1) x3 x4 0 (by norm_num) p q) * Ideal.tanh (tilePre (k0_pay3 x0 x1) x3 x4 2048 (by norm_num) p q)
    + Ideal.logistic (tilePre (k0_pay3 x0 x1) x3 x4 1024 (by norm_num) p q) * x2 (ix2 p q)

/-- The output on the tile. -/
def outTile (x0 x1 x2 : Vec Ideal S256x1024 .f32) (x3 : Vec Ideal S5120x2048 .bf16) (x4 : Vec Ideal S1x5120 .f32)
    (x5 : Vec Ideal S1024x1024 .bf16) (x6 : Vec Ideal S1x1024 .f32) (p : Fin 256) (q : Fin 1024) : EReal :=
  Ideal.logistic (tilePre (k0_pay3 x0 x1) x3 x4 4096 (by norm_num) p q)
      * (Ideal.logistic (tilePre (k0_pay3 x0 x1) x3 x4 3072 (by norm_num) p q) * Ideal.tanh (memTile x0 x1 x2 x3 x4 p q))
    + (Ideal.ofBits .f32 0x3F800000#32 - Ideal.logistic (tilePre (k0_pay3 x0 x1) x3 x4 4096 (by norm_num) p q)) * tileHighway x0 x5 x6 p q

theorem hz : (![0, 0] : Fin 2 → Nat) = fun _ => 0 := funext fun a => by fin_cases a <;> rfl

/-- The payload of the cell-state store, read at an entry. -/
theorem pay_memory_apply (x0 x1 x2 : Vec Ideal S256x1024 .f32) (x3 : Vec Ideal S5120x2048 .bf16) (x4 : Vec Ideal S1x5120 .f32) (p : Fin 256) (q : Fin 1024) :
    k0_pay4 x0 x1 x2 (View.ld x3 r0_1) (View.ld x4 r0_2) (View.ld x3 r0_3) (View.ld x4 r0_4) (View.ld x3 r0_5) (View.ld x4 r0_6) (ix2 p q)
      = memTile x0 x1 x2 x3 x4 p q := by
  unfold k0_pay4 memTile
  exact congrArg₂ (· + ·)
    (congrArg₂ (· * ·) (congrArg Ideal.logistic (gate_tile (k0_pay3 x0 x1) x3 x4 0 (by norm_num) _ _ _ _ _ p q))
      (congrArg Ideal.tanh (gate_tile (k0_pay3 x0 x1) x3 x4 2048 (by norm_num) _ _ _ _ _ p q)))
    (congrArg (· * x2 (ix2 p q)) (congrArg Ideal.logistic (gate_tile (k0_pay3 x0 x1) x3 x4 1024 (by norm_num) _ _ _ _ _ p q)))

/-- What the body leaves in the cell-state window's buffer, read at an entry. -/
theorem out0_8_apply (x0 x1 x2 : Vec Ideal S256x1024 .f32) (x3 : Vec Ideal S5120x2048 .bf16) (x4 : Vec Ideal S1x5120 .f32)
    (x5 : Vec Ideal S1024x1024 .bf16) (x6 : Vec Ideal S1x1024 .f32) (p : Fin 256) (q : Fin 1024) :
    out0_8 x0 x1 x2 x3 x4 x5 x6 (ix2 p q) = memTile x0 x1 x2 x3 x4 p q := by
  unfold out0_8
  rw [View.canon_unit_zero hz]
  simp only [View.ld_unit_zero (S := S256x1024) hz]
  exact pay_memory_apply x0 x1 x2 x3 x4 p q

/-- The payload of the output store, read at an entry. -/
theorem pay_out_apply (x0 x1 x2 : Vec Ideal S256x1024 .f32) (x3 : Vec Ideal S5120x2048 .bf16) (x4 : Vec Ideal S1x5120 .f32)
    (x5 : Vec Ideal S1024x1024 .bf16) (x6 : Vec Ideal S1x1024 .f32) (p : Fin 256) (q : Fin 1024) :
    k0_pay1 (k0_pay2 x0) (k0_pay3 x0 x1)
        (k0_pay4 x0 x1 x2 (View.ld x3 r0_1) (View.ld x4 r0_2) (View.ld x3 r0_3) (View.ld x4 r0_4) (View.ld x3 r0_5) (View.ld x4 r0_6))
        (k0_pay5 (View.ld x3 r0_7)) (View.ld x4 r0_8) (View.ld x5 r0_9) (View.ld x6 r0_10) (View.ld x3 r0_11) (View.ld x4 r0_12) (ix2 p q)
      = outTile x0 x1 x2 x3 x4 x5 x6 p q := by
  unfold k0_pay1 outTile tileHighway
  exact congrArg₂ (· + ·)
    (congrArg₂ (· * ·) (congrArg Ideal.logistic (gate_tile (k0_pay3 x0 x1) x3 x4 4096 (by norm_num) _ _ _ _ _ p q))
      (congrArg₂ (· * ·) (congrArg Ideal.logistic (gate_tile (k0_pay3 x0 x1) x3 x4 3072 (by norm_num) _ _ _ _ _ p q))
        (congrArg Ideal.tanh (pay_memory_apply x0 x1 x2 x3 x4 p q))))
    (congrArg₂ (· * ·)
      (congrArg (Ideal.ofBits .f32 0x3F800000#32 - ·) (congrArg Ideal.logistic (gate_tile (k0_pay3 x0 x1) x3 x4 4096 (by norm_num) _ _ _ _ _ p q)))
      (highway_tile (k0_pay2 x0) x5 x6 _ _ _ _ _ p q))

/-- What the body leaves in the output window's buffer, read at an entry. -/
theorem out0_7_apply (x0 x1 x2 : Vec Ideal S256x1024 .f32) (x3 : Vec Ideal S5120x2048 .bf16) (x4 : Vec Ideal S1x5120 .f32)
    (x5 : Vec Ideal S1024x1024 .bf16) (x6 : Vec Ideal S1x1024 .f32) (p : Fin 256) (q : Fin 1024) :
    out0_7 x0 x1 x2 x3 x4 x5 x6 (ix2 p q) = outTile x0 x1 x2 x3 x4 x5 x6 p q := by
  unfold out0_7
  rw [View.canon_unit_zero hz]
  simp only [View.ld_unit_zero (S := S256x1024) hz]
  exact pay_out_apply x0 x1 x2 x3 x4 x5 x6 p q

/-! ## The tile is the specification's cell, once its blocks are read where they lie in the arrays

  Stated over variables: the tile's rows are rows of x, h, c (row p of the tile is row r of the batch), the joined weights
  hold Wi's and Ws's rows side by side, the summed bias holds bi + bs, the highway block holds the last H rows of Wi and the
  last H entries of bi. -/

section Bridge
variable (x h cc : FVec Ideal ⟨2, ![16384, 1024]⟩ .f32) (Wi : FVec Ideal ⟨2, ![6144, 1024]⟩ .f32) (bi : FVec Ideal ⟨1, ![6144]⟩ .f32)
  (Ws : FVec Ideal ⟨2, ![5120, 1024]⟩ .f32) (bs : FVec Ideal ⟨1, ![5120]⟩ .f32)
  (x0 x1 x2 : Vec Ideal S256x1024 .f32) (x3 : Vec Ideal S5120x2048 .bf16) (x4 : Vec Ideal S1x5120 .f32)
  (x5 : Vec Ideal S1024x1024 .bf16) (x6 : Vec Ideal S1x1024 .f32) (r : Fin 16384) (p : Fin 256)

/-- A gate's pre-activation on the tile is the specification's: the product over the 2H joined features splits into the x
    half against Wi and the h half against Ws, and the four summands regroup. -/
theorem tilePre_eq_pre (h0 : ∀ k : Fin 1024, x0 (ix2 p k) = x (ix2 r k)) (h1 : ∀ k : Fin 1024, x1 (ix2 p k) = h (ix2 r k))
    (h3l : ∀ (n : Fin 5120) (k : Fin 1024), x3 (ix2 n (⟨k.val, by have := k.isLt; omega⟩ : Fin 2048)) = Wi (ix2 (up n) k))
    (h3r : ∀ (n : Fin 5120) (k : Fin 1024), x3 (ix2 n (⟨1024 + k.val, by have := k.isLt; omega⟩ : Fin 2048)) = Ws (ix2 n k))
    (h4 : ∀ n : Fin 5120, x4 (ix2 (0 : Fin 1) n) = bi (ix1 (up n)) + bs (ix1 n))
    (o : Nat) (ho : o + 1024 ≤ 5120) (q : Fin 1024) :
    tilePre (k0_pay3 x0 x1) x3 x4 o ho p q = pre x h Wi bi Ws bs r (gateRow o ho q) := by
  unfold tilePre
  rw [h4]
  exact fused_eq_pre x h Wi bi Ws bs r (gateRow o ho q) (fun k => k0_pay3 x0 x1 (ix2 p k)) (fun k => x3 (ix2 (gateRow o ho q) k))
    (fun k => (joined_left x0 x1 p k).trans (h0 k)) (fun k => (joined_right x0 x1 p k).trans (h1 k))
    (fun k => h3l _ k) (fun k => h3r _ k)

/-- The tile's new cell state is the specification's at (r, q). -/
theorem memTile_eq_memoryAt (h0 : ∀ k : Fin 1024, x0 (ix2 p k) = x (ix2 r k)) (h1 : ∀ k : Fin 1024, x1 (ix2 p k) = h (ix2 r k))
    (h2 : ∀ q : Fin 1024, x2 (ix2 p q) = cc (ix2 r q))
    (h3l : ∀ (n : Fin 5120) (k : Fin 1024), x3 (ix2 n (⟨k.val, by have := k.isLt; omega⟩ : Fin 2048)) = Wi (ix2 (up n) k))
    (h3r : ∀ (n : Fin 5120) (k : Fin 1024), x3 (ix2 n (⟨1024 + k.val, by have := k.isLt; omega⟩ : Fin 2048)) = Ws (ix2 n k))
    (h4 : ∀ n : Fin 5120, x4 (ix2 (0 : Fin 1) n) = bi (ix1 (up n)) + bs (ix1 n)) (q : Fin 1024) :
    memTile x0 x1 x2 x3 x4 p q = memoryAt x h cc Wi bi Ws bs r q := by
  unfold memTile memoryAt
  rw [tilePre_eq_pre x h Wi bi Ws bs x0 x1 x3 x4 r p h0 h1 h3l h3r h4, tilePre_eq_pre x h Wi bi Ws bs x0 x1 x3 x4 r p h0 h1 h3l h3r h4,
    tilePre_eq_pre x h Wi bi Ws bs x0 x1 x3 x4 r p h0 h1 h3l h3r h4, h2]

/-- The tile's output is the specification's at (r, q). -/
theorem outTile_eq_outAt (h0 : ∀ k : Fin 1024, x0 (ix2 p k) = x (ix2 r k)) (h1 : ∀ k : Fin 1024, x1 (ix2 p k) = h (ix2 r k))
    (h2 : ∀ q : Fin 1024, x2 (ix2 p q) = cc (ix2 r q))
    (h3l : ∀ (n : Fin 5120) (k : Fin 1024), x3 (ix2 n (⟨k.val, by have := k.isLt; omega⟩ : Fin 2048)) = Wi (ix2 (up n) k))
    (h3r : ∀ (n : Fin 5120) (k : Fin 1024), x3 (ix2 n (⟨1024 + k.val, by have := k.isLt; omega⟩ : Fin 2048)) = Ws (ix2 n k))
    (h4 : ∀ n : Fin 5120, x4 (ix2 (0 : Fin 1) n) = bi (ix1 (up n)) + bs (ix1 n))
    (h5 : ∀ j k : Fin 1024, x5 (ix2 j k) = Wi (ix2 (hwRow j) k)) (h6 : ∀ j : Fin 1024, x6 (ix2 (0 : Fin 1) j) = bi (ix1 (hwRow j)))
    (q : Fin 1024) :
    outTile x0 x1 x2 x3 x4 x5 x6 p q = outAt x h cc Wi bi Ws bs r q := by
  unfold outTile outAt tileHighway highwayAt dotRow
  rw [tilePre_eq_pre x h Wi bi Ws bs x0 x1 x3 x4 r p h0 h1 h3l h3r h4, tilePre_eq_pre x h Wi bi Ws bs x0 x1 x3 x4 r p h0 h1 h3l h3r h4,
    memTile_eq_memoryAt x h cc Wi bi Ws bs x0 x1 x2 x3 x4 r p h0 h1 h2 h3l h3r h4, h6]
  simp only [h0, h5]

end Bridge

end Cert.KernelIdeal.Tile

end
-- ==== Proof.HostPrelude.lean ====
/-
  What the region finds in the four arrays the host operations prepare before the kernel is launched, entry by entry, in
  terms of the program's arguments:
    • the joined weights [5H, 2H]: the first 5H rows of Wi and the rows of Ws, each regrouped as 5 blocks of H rows, joined
      along the features, and the blocks merged back — so row n holds Wi(n, ·) in its first H columns and Ws(n, ·) in its last H;
    • the summed bias [1, 5H]: bi(n) + bs(n) at column n;
    • the highway weights [H, H]: rows 5H … 6H − 1 of Wi;
    • the highway bias [1, H]: entries 5H … 6H − 1 of bi.
  A change of float format is the identity on the extended reals; a regrouping of rows keeps the row-major position.
-/
import proofs.«110209_j10565619549064_2_alg».proof.Proof.Gen.KernelIdeal.Frame
import proofs.«110209_j10565619549064_2_alg».proof.Proof.LstmSpec
import Idealize.ShloMosaic.Lib.StableHlo.Run
import Idealize.ShloMosaic.Lib.ValueLayout
import Idealize.ShloMosaic.Lib.Pipeline.Value

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx HighwayLstm

/-! ## Regrouping 5H rows as 5 blocks of H rows, and back -/

/-- Row n of a [5H, C] matrix is row n mod H of block n / H after the rows are regrouped. -/
theorem split_rows_apply {α : Type} {C : Nat} (X : (⟨2, ![5120, C]⟩ : Shape).Idx → α)
    (h : (⟨2, ![5120, C]⟩ : Shape).ShapeCasts ⟨3, ![5, 1024, C]⟩) (n : Fin 5120) (k : Fin C) :
    shapeCast ⟨3, ![5, 1024, C]⟩ X h
        (ix3 (⟨n.val / 1024, by have := n.isLt; omega⟩ : Fin 5) (⟨n.val % 1024, by omega⟩ : Fin 1024) k) = X (ix2 n k) :=
  shapeCast_apply X h _ _ (by
    rw [Shape.rowMajor_val_three, Shape.rowMajor_val_two]
    show n.val * C + k.val = (n.val / 1024 * 1024 + n.val % 1024) * C + k.val
    rw [Nat.div_add_mod'])

/-- Row n of the merged [5H, C] matrix is row n mod H of block n / H. -/
theorem merge_rows_apply {α : Type} {C : Nat} (Y : (⟨3, ![5, 1024, C]⟩ : Shape).Idx → α)
    (h : (⟨3, ![5, 1024, C]⟩ : Shape).ShapeCasts ⟨2, ![5120, C]⟩) (n : Fin 5120) (k : Fin C) :
    shapeCast ⟨2, ![5120, C]⟩ Y h (ix2 n k)
      = Y (ix3 (⟨n.val / 1024, by have := n.isLt; omega⟩ : Fin 5) (⟨n.val % 1024, by omega⟩ : Fin 1024) k) :=
  shapeCast_apply Y h _ _ (by
    rw [Shape.rowMajor_val_three, Shape.rowMajor_val_two]
    show (n.val / 1024 * 1024 + n.val % 1024) * C + k.val = n.val * C + k.val
    rw [Nat.div_add_mod'])

variable (m : (ℓ : Loc nD τ sig) → Buf (Elt Ideal) ℓ) (c : Dev nD)

/-! ## The program's seven arguments on core c, as arrays of extended reals -/

abbrev argX : FVec Ideal S16384x1024 .f32 := m ((c : Thread nD τ).loc main_arg0)
abbrev argH : FVec Ideal S16384x1024 .f32 := m ((c : Thread nD τ).loc main_arg1)
abbrev argC : FVec Ideal S16384x1024 .f32 := m ((c : Thread nD τ).loc main_arg2)
abbrev argWi : FVec Ideal S6144x1024 .f32 := m ((c : Thread nD τ).loc main_arg3)
abbrev argBi : FVec Ideal S6144 .f32 := m ((c : Thread nD τ).loc main_arg4)
abbrev argWs : FVec Ideal S5120x1024 .f32 := m ((c : Thread nD τ).loc main_arg5)
abbrev argBs : FVec Ideal S5120 .f32 := m ((c : Thread nD τ).loc main_arg6)

/-! ## The four prepared arrays as terms of the arguments -/

theorem V_wg : (V m c main_v7 : S5120x2048.Idx → EReal)
    = shapeCast S5120x2048
        (concatenate S5x1024x2048 2
          [⟨S5x1024x1024, shapeCast S5x1024x1024
              (extractStridedSlice S5120x1024 ![0, 0] (truncf .bf16 (argWi m c) bitsLt_bf16_f32) slices_S6144x1024_S5120x1024_0_0)
              shapeCasts_S5120x1024_S5x1024x1024⟩,
           ⟨S5x1024x1024, shapeCast S5x1024x1024 (truncf .bf16 (argWs m c) bitsLt_bf16_f32) shapeCasts_S5120x1024_S5x1024x1024⟩]
          concatenates_S5x1024x1024_S5x1024x1024_S5x1024x2048_d2)
        shapeCasts_S5x1024x2048_S5120x2048 := by
  dsimp only [Gen.V, Gen.hostOps0]; after_results; rfl

theorem V_bg : (V m c main_v10 : S1x5120.Idx → EReal)
    = shapeCast S1x5120 (addf (F := Ideal) (extractStridedSlice S5120 ![0] (argBi m c) slices_S6144_S5120_0)
        (argBs m c)) shapeCasts_S5120_S1x5120 := by
  dsimp only [Gen.V, Gen.hostOps0]; after_results; rfl

theorem V_wihw : (V m c main_v3 : S1024x1024.Idx → EReal)
    = extractStridedSlice S1024x1024 ![5120, 0] (truncf .bf16 (argWi m c) bitsLt_bf16_f32) slices_S6144x1024_S1024x1024_5120_0 := by
  dsimp only [Gen.V, Gen.hostOps0]; after_results

theorem V_bihw : (V m c main_v12 : S1x1024.Idx → EReal)
    = shapeCast S1x1024 (extractStridedSlice S1024 ![5120] (argBi m c) slices_S6144_S1024_5120) shapeCasts_S1024_S1x1024 := by
  dsimp only [Gen.V, Gen.hostOps0]; after_results; rfl

/-! ## Read at an entry -/

/-- The first H columns of joined weight row n are Wi's row n. -/
theorem wg_left (n : Fin 5120) (k : Fin 1024) :
    (V m c main_v7 : S5120x2048.Idx → EReal) (ix2 n (⟨k.val, by have := k.isLt; omega⟩ : Fin 2048))
      = argWi m c (ix2 (up n) k) := by
  refine (congrFun (V_wg m c) _).trans ?_
  refine (merge_rows_apply _ _ n _).trans ?_
  refine (concatenate_pair_apply_left (t := S5x1024x2048) (s₁ := S5x1024x1024) (s₂ := S5x1024x1024) (2 : Fin 3) _ _ _
    (ix3 (⟨n.val / 1024, by have := n.isLt; omega⟩ : Fin 5) (⟨n.val % 1024, by omega⟩ : Fin 1024) (⟨k.val, by have := k.isLt; omega⟩ : Fin 2048)) rfl
    (ix3 (⟨n.val / 1024, by have := n.isLt; omega⟩ : Fin 5) (⟨n.val % 1024, by omega⟩ : Fin 1024) k) (fun b => by
      match b with
      | ⟨0, _⟩ => rfl
      | ⟨1, _⟩ => rfl
      | ⟨2, _⟩ => rfl)).trans ?_
  refine (split_rows_apply _ _ n k).trans ?_
  exact slice2_axis0_apply 0 _ _ n k (up n) (by show n.val = 0 + n.val; omega)

/-- The last H columns of joined weight row n are Ws's row n. -/
theorem wg_right (n : Fin 5120) (k : Fin 1024) :
    (V m c main_v7 : S5120x2048.Idx → EReal) (ix2 n (⟨1024 + k.val, by have := k.isLt; omega⟩ : Fin 2048))
      = argWs m c (ix2 n k) := by
  refine (congrFun (V_wg m c) _).trans ?_
  refine (merge_rows_apply _ _ n _).trans ?_
  refine (concatenate_pair_apply_right (t := S5x1024x2048) (s₁ := S5x1024x1024) (s₂ := S5x1024x1024) (2 : Fin 3) _ _ _
    (ix3 (⟨n.val / 1024, by have := n.isLt; omega⟩ : Fin 5) (⟨n.val % 1024, by omega⟩ : Fin 1024) (⟨1024 + k.val, by have := k.isLt; omega⟩ : Fin 2048)) rfl rfl
    (ix3 (⟨n.val / 1024, by have := n.isLt; omega⟩ : Fin 5) (⟨n.val % 1024, by omega⟩ : Fin 1024) k) (fun b hb => by
      match b, hb with
      | ⟨0, _⟩, _ => rfl
      | ⟨1, _⟩, _ => rfl
      | ⟨2, _⟩, hb => exact absurd (Fin.ext rfl) hb) (by show k.val + 1024 = 1024 + k.val; omega)).trans ?_
  exact split_rows_apply _ _ n k

/-- Column n of the summed bias is bi(n) + bs(n). -/
theorem bg_apply (n : Fin 5120) :
    (V m c main_v10 : S1x5120.Idx → EReal) (ix2 (0 : Fin 1) n)
      = argBi m c (ix1 (up n)) + argBs m c (ix1 n) := by
  refine (congrFun (V_bg m c) _).trans ?_
  refine (shapeCast_a_1a_apply _ _ (0 : Fin 1) n).trans ?_
  refine congrArg (· + argBs m c (ix1 n)) ?_
  exact extractStridedSlice_apply _ _ _ _ (ix1 (up n)) (fun a => by
    match a with
    | ⟨0, _⟩ => show n.val = 0 + n.val; omega)

/-- Row j of the highway weights is row 5H + j of Wi. -/
theorem wihw_apply (j k : Fin 1024) :
    (V m c main_v3 : S1024x1024.Idx → EReal) (ix2 j k)
      = argWi m c (ix2 (hwRow j) k) := by
  refine (congrFun (V_wihw m c) _).trans ?_
  exact slice2_axis0_apply 5120 _ _ j k (hwRow j) rfl

/-- Column j of the highway bias is entry 5H + j of bi. -/
theorem bihw_apply (j : Fin 1024) :
    (V m c main_v12 : S1x1024.Idx → EReal) (ix2 (0 : Fin 1) j)
      = argBi m c (ix1 (hwRow j)) := by
  refine (congrFun (V_bihw m c) _).trans ?_
  refine (shapeCast_a_1a_apply _ _ (0 : Fin 1) j).trans ?_
  exact extractStridedSlice_apply _ _ _ _ (ix1 (hwRow j)) (fun a => by
    match a with
    | ⟨0, _⟩ => rfl)

end Cert.KernelIdeal.Prelude

end
-- ==== Proof.KernelArray.lean ====
/-
  From the grid's 64 tiles to the two whole result arrays.

  Point t of the grid works on batch rows 256·t … 256·t + 255: the x, h, c blocks and both output blocks are those rows of
  their arrays, while the joined weights, the summed bias and the highway block are read whole at every point. So what point
  t writes back is rows 256·t … of the specification's arrays, the 64 blocks cover every row, and after the run the two
  result arrays hold the specification's output and new cell state.
-/
import proofs.«110209_j10565619549064_2_alg».proof.Proof.Gen.KernelIdeal.Value
import proofs.«110209_j10565619549064_2_alg».proof.Proof.KernelTile
import proofs.«110209_j10565619549064_2_alg».proof.Proof.HostPrelude

set_option maxRecDepth 16384

noncomputable section

namespace Cert.KernelIdeal.Whole

open Cert.KernelIdeal Cert.KernelIdeal.Gen Cert.KernelIdeal.Prelude Idealize.ShloMosaic Idealize.ShloMosaic.TcCoe Idealize.SL.Sem
open Idealize.ShloMosaic.Pipeline (Dat)
open Idealize.ShloMosaic.ValueIdx HighwayLstm

/-! ## The printed index maps, decided over the 64 grid points -/

/-- The batch-tiled windows (x, h, c and the two results) all sit at block row t's index and block column 0; the
    weight and bias windows sit at block (0, 0); the block row index is at most 63. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = win0_7.index t (0 : Fin 2) ∧ win0_8.index t (1 : Fin 2) = 0
    ∧ win0_7.index t (1 : Fin 2) = 0 ∧ win0_7.index t (0 : Fin 2) ≤ 63 :=
  (by decide +kernel : ∀ t : Fin grid0.N, _)

/-- Every block row is some point's. -/
theorem idx_onto : ∀ q0 : Fin 64, ∃ t : Fin cfg0.N, win0_7.index t (0 : Fin 2) = q0.val :=
  (by decide +kernel : ∀ q0 : Fin 64, ∃ t : Fin grid0.N, win0_7.index t (0 : Fin 2) = q0.val)

variable (m : (ℓ : Loc nD τ sig) → Buf (Elt Ideal) ℓ) (ρ : Dev nD → PrngReg)

/-! ## The input blocks at point t, read where they lie in their arrays -/

/-- Row p of point t's x block is batch row r = 256·(block row) + p of x. -/
theorem blk_x (c : Dev nD) (t : Fin cfg0.N) (p : Fin 256) (k : Fin 1024) (r : Fin 16384)
    (hr : r.val = win0_7.index t (0 : Fin 2) * 256 + p.val) :
    (iblk m c 0 t : Vec Ideal S256x1024 .f32) (ix2 p k) = argX m c (ix2 r k) := by
  obtain ⟨e00, e01, e10, e11, e20, e21, e30, e31, e40, e41, e50, e51, e60, e61, e80, e81, e71, e7le⟩ := idx_facts t
  refine Eq.trans ?_ (congrFun (V_main_arg0 m c) (ix2 r k))
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The same for h. -/
theorem blk_h (c : Dev nD) (t : Fin cfg0.N) (p : Fin 256) (k : Fin 1024) (r : Fin 16384)
    (hr : r.val = win0_7.index t (0 : Fin 2) * 256 + p.val) :
    (iblk m c 1 t : Vec Ideal S256x1024 .f32) (ix2 p k) = argH m c (ix2 r k) := by
  obtain ⟨e00, e01, e10, e11, e20, e21, e30, e31, e40, e41, e50, e51, e60, e61, e80, e81, e71, e7le⟩ := idx_facts t
  refine Eq.trans ?_ (congrFun (V_main_arg1 m c) (ix2 r k))
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- The same for c. -/
theorem blk_c (c : Dev nD) (t : Fin cfg0.N) (p : Fin 256) (k : Fin 1024) (r : Fin 16384)
    (hr : r.val = win0_7.index t (0 : Fin 2) * 256 + p.val) :
    (iblk m c 2 t : Vec Ideal S256x1024 .f32) (ix2 p k) = argC m c (ix2 r k) := by
  obtain ⟨e00, e01, e10, e11, e20, e21, e30, e31, e40, e41, e50, e51, e60, e61, e80, e81, e71, e7le⟩ := idx_facts t
  refine Eq.trans ?_ (congrFun (V_main_arg2 m c) (ix2 r k))
  show V m c main_arg2 (((cfg0.win 2).blk t).view.emb (ix2 p k)) = V m c main_arg2 (ix2 r k)
  refine congrArg (V m c main_arg2) (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- The joined weights are read whole at every point. -/
theorem blk_wg (c : Dev nD) (t : Fin cfg0.N) (n : Fin 5120) (k : Fin 2048) :
    (iblk m c 3 t : Vec Ideal S5120x2048 .bf16) (ix2 n k) = (V m c main_v7 : S5120x2048.Idx → EReal) (ix2 n k) := by
  obtain ⟨e00, e01, e10, e11, e20, e21, e30, e31, e40, e41, e50, e51, e60, e61, e80, e81, e71, e7le⟩ := idx_facts t
  show V m c main_v7 (((cfg0.win 3).blk t).view.emb (ix2 n k)) = V m c main_v7 (ix2 n k)
  refine congrArg (V m c main_v7) (funext fun a => Fin.ext ?_)
  match a with
  | ⟨0, _⟩ => show win0_3.index t (0 : Fin 2) * 5120 + 1 * n.val = n.val; omega
  | ⟨1, _⟩ => show win0_3.index t (1 : Fin 2) * 2048 + 1 * k.val = k.val; omega

/-- The summed bias is read whole at every point. -/
theorem blk_bg (c : Dev nD) (t : Fin cfg0.N) (n : Fin 5120) :
    (iblk m c 4 t : Vec Ideal S1x5120 .f32) (ix2 (0 : Fin 1) n) = (V m c main_v10 : S1x5120.Idx → EReal) (ix2 (0 : Fin 1) n) := by
  obtain ⟨e00, e01, e10, e11, e20, e21, e30, e31, e40, e41, e50, e51, e60, e61, e80, e81, e71, e7le⟩ := idx_facts t
  show V m c main_v10 (((cfg0.win 4).blk t).view.emb (ix2 (0 : Fin 1) n)) = V m c main_v10 (ix2 (0 : Fin 1) n)
  refine congrArg (V m c main_v10) (funext fun a => Fin.ext ?_)
  match a with
  | ⟨0, _⟩ => show win0_4.index t (0 : Fin 2) * 1 + 1 * 0 = 0; omega
  | ⟨1, _⟩ => show win0_4.index t (1 : Fin 2) * 5120 + 1 * n.val = n.val; omega

/-- The highway weights are read whole at every point. -/
theorem blk_wihw (c : Dev nD) (t : Fin cfg0.N) (j k : Fin 1024) :
    (iblk m c 5 t : Vec Ideal S1024x1024 .bf16) (ix2 j k) = (V m c main_v3 : S1024x1024.Idx → EReal) (ix2 j k) := by
  obtain ⟨e00, e01, e10, e11, e20, e21, e30, e31, e40, e41, e50, e51, e60, e61, e80, e81, e71, e7le⟩ := idx_facts t
  show V m c main_v3 (((cfg0.win 5).blk t).view.emb (ix2 j k)) = V m c main_v3 (ix2 j k)
  refine congrArg (V m c main_v3) (funext fun a => Fin.ext ?_)
  match a with
  | ⟨0, _⟩ => show win0_5.index t (0 : Fin 2) * 1024 + 1 * j.val = j.val; omega
  | ⟨1, _⟩ => show win0_5.index t (1 : Fin 2) * 1024 + 1 * k.val = k.val; omega

/-- The highway bias is read whole at every point. -/
theorem blk_bihw (c : Dev nD) (t : Fin cfg0.N) (j : Fin 1024) :
    (iblk m c 6 t : Vec Ideal S1x1024 .f32) (ix2 (0 : Fin 1) j) = (V m c main_v12 : S1x1024.Idx → EReal) (ix2 (0 : Fin 1) j) := by
  obtain ⟨e00, e01, e10, e11, e20, e21, e30, e31, e40, e41, e50, e51, e60, e61, e80, e81, e71, e7le⟩ := idx_facts t
  show V m c main_v12 (((cfg0.win 6).blk t).view.emb (ix2 (0 : Fin 1) j)) = V m c main_v12 (ix2 (0 : Fin 1) j)
  refine congrArg (V m c main_v12) (funext fun a => Fin.ext ?_)
  match a with
  | ⟨0, _⟩ => show win0_6.index t (0 : Fin 2) * 1 + 1 * 0 = 0; omega
  | ⟨1, _⟩ => show win0_6.index t (1 : Fin 2) * 1024 + 1 * j.val = j.val; omega

/-! ## What point t writes back is its rows of the specification's arrays -/

/-- The new cell state: point t writes back block t of the specification's `memory`. -/
theorem flushed_memory (c : Dev nD) (t : Fin cfg0.N) :
    (dats m 0 c).flushed 8 t = ((cfg0.win 8).blk t).view.read (Elt Ideal) (memory (argX m c) (argH m c) (argC m c) (argWi m c) (argBi m c) (argWs m c) (argBs m c)) := by
  rw [Value.flushed8]
  obtain ⟨e00, e01, e10, e11, e20, e21, e30, e31, e40, e41, e50, e51, e60, e61, e80, e81, e71, e7le⟩ := idx_facts t
  funext y
  obtain ⟨p, q, rfl⟩ : ∃ (p : Fin 256) (q : Fin 1024), y = ix2 p q := ⟨y 0, y 1, eq_ix2 y⟩
  have hp := p.isLt
  obtain ⟨r, hr⟩ : ∃ r : Fin 16384, r.val = win0_7.index t (0 : Fin 2) * 256 + p.val := ⟨⟨_, by omega⟩, rfl⟩
  have hemb : ((cfg0.win 8).blk t).view.emb (ix2 p q) = ix2 r q := funext fun a => Fin.ext (by
    match a with
    | ⟨0, _⟩ => show win0_8.index t (0 : Fin 2) * 256 + 1 * p.val = r.val; omega
    | ⟨1, _⟩ => show win0_8.index t (1 : Fin 2) * 1024 + 1 * q.val = q.val; omega)
  show out0_8 (iblk m c 0 t) (iblk m c 1 t) (iblk m c 2 t) (iblk m c 3 t) (iblk m c 4 t) (iblk m c 5 t) (iblk m c 6 t) (ix2 p q) = memory (argX m c) (argH m c) (argC m c) (argWi m c) (argBi m c) (argWs m c) (argBs m c) (((cfg0.win 8).blk t).view.emb (ix2 p q))
  rw [hemb]
  refine (Tile.out0_8_apply (iblk m c 0 t) (iblk m c 1 t) (iblk m c 2 t) (iblk m c 3 t) (iblk m c 4 t) (iblk m c 5 t) (iblk m c 6 t) p q).trans ?_
  exact Tile.memTile_eq_memoryAt (argX m c) (argH m c) (argC m c) (argWi m c) (argBi m c) (argWs m c) (argBs m c) (iblk m c 0 t) (iblk m c 1 t) (iblk m c 2 t) (iblk m c 3 t) (iblk m c 4 t) r p
    (fun k => blk_x m c t p k r hr) (fun k => blk_h m c t p k r hr) (fun q => blk_c m c t p q r hr)
    (fun n k => (blk_wg m c t n _).trans (wg_left m c n k)) (fun n k => (blk_wg m c t n _).trans (wg_right m c n k))
    (fun n => (blk_bg m c t n).trans (bg_apply m c n)) q

/-- The output: point t writes back block t of the specification's `out`. -/
theorem flushed_out (c : Dev nD) (t : Fin cfg0.N) :
    (dats m 0 c).flushed 7 t = ((cfg0.win 7).blk t).view.read (Elt Ideal) (out (argX m c) (argH m c) (argC m c) (argWi m c) (argBi m c) (argWs m c) (argBs m c)) := by
  rw [Value.flushed7]
  obtain ⟨e00, e01, e10, e11, e20, e21, e30, e31, e40, e41, e50, e51, e60, e61, e80, e81, e71, e7le⟩ := idx_facts t
  funext y
  obtain ⟨p, q, rfl⟩ : ∃ (p : Fin 256) (q : Fin 1024), y = ix2 p q := ⟨y 0, y 1, eq_ix2 y⟩
  have hp := p.isLt
  obtain ⟨r, hr⟩ : ∃ r : Fin 16384, r.val = win0_7.index t (0 : Fin 2) * 256 + p.val := ⟨⟨_, by omega⟩, rfl⟩
  have hemb : ((cfg0.win 7).blk t).view.emb (ix2 p q) = ix2 r q := funext fun a => Fin.ext (by
    match a with
    | ⟨0, _⟩ => show win0_7.index t (0 : Fin 2) * 256 + 1 * p.val = r.val; omega
    | ⟨1, _⟩ => show win0_7.index t (1 : Fin 2) * 1024 + 1 * q.val = q.val; omega)
  show out0_7 (iblk m c 0 t) (iblk m c 1 t) (iblk m c 2 t) (iblk m c 3 t) (iblk m c 4 t) (iblk m c 5 t) (iblk m c 6 t) (ix2 p q) = out (argX m c) (argH m c) (argC m c) (argWi m c) (argBi m c) (argWs m c) (argBs m c) (((cfg0.win 7).blk t).view.emb (ix2 p q))
  rw [hemb]
  refine (Tile.out0_7_apply (iblk m c 0 t) (iblk m c 1 t) (iblk m c 2 t) (iblk m c 3 t) (iblk m c 4 t) (iblk m c 5 t) (iblk m c 6 t) p q).trans ?_
  exact Tile.outTile_eq_outAt (argX m c) (argH m c) (argC m c) (argWi m c) (argBi m c) (argWs m c) (argBs m c) (iblk m c 0 t) (iblk m c 1 t) (iblk m c 2 t) (iblk m c 3 t) (iblk m c 4 t) (iblk m c 5 t) (iblk m c 6 t) r p
    (fun k => blk_x m c t p k r hr) (fun k => blk_h m c t p k r hr) (fun q => blk_c m c t p q r hr)
    (fun n k => (blk_wg m c t n _).trans (wg_left m c n k)) (fun n k => (blk_wg m c t n _).trans (wg_right m c n k))
    (fun n => (blk_bg m c t n).trans (bg_apply m c n))
    (fun j k => (blk_wihw m c t j k).trans (wihw_apply m c j k)) (fun j => (blk_bihw m c t j).trans (bihw_apply m c j)) q

/-! ## The 64 blocks cover the arrays -/

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v13_0).slice (win0_7.rect t)).set ↔ _
  rw [View.set_slice_whole, Rect.mem_set_unit]
  exact Iff.rfl

theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v13_1).slice (win0_8.rect t)).set ↔ _
  rw [View.set_slice_whole, Rect.mem_set_unit]
  exact Iff.rfl

/-- Row i₀ of the output array lies in the block of the point whose block row is i₀ / 256. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ := idx_onto ⟨(i 0).val / 256, by omega⟩
  have q0 : win0_7.index t (0 : Fin 2) = (i 0).val / 256 := ht
  obtain ⟨e00, e01, e10, e11, e20, e21, e30, e31, e40, e41, e50, e51, e60, e61, e80, e81, e71, e7le⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The same for the cell-state array. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ := idx_onto ⟨(i 0).val / 256, by omega⟩
  have q0 : win0_7.index t (0 : Fin 2) = (i 0).val / 256 := ht
  obtain ⟨e00, e01, e10, e11, e20, e21, e30, e31, e40, e41, e50, e51, e60, e61, e80, e81, e71, e7le⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-! ## The arrays after the run -/

theorem final_out (c : Dev nD) : (dats m 0 c).arrAt 7 cfg0.N = out (argX m c) (argH m c) (argC m c) (argWi m c) (argBi m c) (argWs m c) (argBs m c) :=
  (dats m 0 c).arrAt_eq_of_cover 7 (out (argX m c) (argH m c) (argC m c) (argWi m c) (argBi m c) (argWs m c) (argBs m c)) (fun t _ => flushed_out m c t) cover7

theorem final_memory (c : Dev nD) : (dats m 0 c).arrAt 8 cfg0.N = memory (argX m c) (argH m c) (argC m c) (argWi m c) (argBi m c) (argWs m c) (argBs m c) :=
  (dats m 0 c).arrAt_eq_of_cover 8 (memory (argX m c) (argH m c) (argC m c) (argWi m c) (argBi m c) (argWs m c) (argBs m c)) (fun t _ => flushed_memory m c t) cover8

/-- The kernel's run: it terminates without a fault, its first result holds the specification's output and its second the
    new cell state, of the arguments as launched, which end unchanged. -/
theorem run : θ_run defs (onTc (τ := τ) (main (F := Ideal))) ⟨m, fun _ => 0, ρ⟩ fun r => ∀ c : Dev nD,
      r.2.mem ((c : Thread nD τ).loc main_v13_0) = out (argX m c) (argH m c) (argC m c) (argWi m c) (argBi m c) (argWs m c) (argBs m c)
      ∧ r.2.mem ((c : Thread nD τ).loc main_v13_1) = memory (argX m c) (argH m c) (argC m c) (argWi m c) (argBi m c) (argWs m c) (argBs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c), (h c).2.1.trans (final_memory m c), (h c).2.2⟩)
    (Value.run_blocks m ρ)

end Cert.KernelIdeal.Whole

end
-- ==== Proof.lean ====
/-
  A highway LSTM cell: the kernel against its reference, equal as extended reals entry by entry.

  Both programs compute, for every batch row r and hidden unit j,
      memory(r,j) = σ(i)·tanh(m) + σ(f)·c(r,j),   out(r,j) = σ(g)·(σ(o)·tanh(memory(r,j))) + (1 − σ(g))·highway(r,j),
  where i, f, m, o, g are the five gate pre-activations x·Wiᵀ + bi + h·Wsᵀ + bs on their blocks of H rows and highway is the
  last block of x·Wiᵀ + bi (LstmSpec). The reference forms the two projections separately and adds them (RefIsLstm). The
  kernel, on tiles of 256 batch rows, multiplies the joined features [x | h] against joined weight rows [Wi | Ws] and adds the
  summed bias bi + bs, all prepared before the launch (HostPrelude, KernelTile); the two arrangements agree because
  addition of extended reals is commutative and associative, so the finiteness of the inputs is never used. The 64 tiles
  cover the result arrays (KernelArray). The logistic function is one function on the extended reals whether a program
  names it or writes it out as 1/(1 + e^(−z)), and a change of float format is the identity there.

  The kernel's idealization rewrote no operation, so that it is the kernel's sanctioned idealization holds trivially. The
  three runs terminate without a fault and leave the arguments unchanged by the generated frames and the reference's run.
-/
import proofs.«110209_j10565619549064_2_alg».proof.Defs
import proofs.«110209_j10565619549064_2_alg».proof.Proof.Gen.Kernel
import proofs.«110209_j10565619549064_2_alg».proof.Proof.Gen.Kernel.Skeleton
import proofs.«110209_j10565619549064_2_alg».proof.Proof.Gen.Kernel.Launch
import proofs.«110209_j10565619549064_2_alg».proof.Proof.Gen.Kernel.Points
import proofs.«110209_j10565619549064_2_alg».proof.Proof.Gen.Kernel.Frame
import proofs.«110209_j10565619549064_2_alg».proof.Proof.Gen.KernelIdeal
import proofs.«110209_j10565619549064_2_alg».proof.Proof.Gen.KernelIdeal.Skeleton
import proofs.«110209_j10565619549064_2_alg».proof.Proof.Gen.KernelIdeal.Launch
import proofs.«110209_j10565619549064_2_alg».proof.Proof.Gen.KernelIdeal.Points
import proofs.«110209_j10565619549064_2_alg».proof.Proof.Gen.KernelIdeal.Frame
import proofs.«110209_j10565619549064_2_alg».proof.Proof.Gen.ReferenceIdeal
import proofs.«110209_j10565619549064_2_alg».proof.Proof.Gen.Pre_finite_inputs
import proofs.«110209_j10565619549064_2_alg».proof.Proof.Gen.KernelIdeal.Value
import proofs.«110209_j10565619549064_2_alg».proof.Proof.Gen.ReferenceIdeal.Run
import proofs.«110209_j10565619549064_2_alg».proof.Proof.Gen.ReferenceIdeal.Read
import proofs.«110209_j10565619549064_2_alg».proof.Proof.RefIsLstm
import proofs.«110209_j10565619549064_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- Both runs end with the specification's output and new cell state of the arguments they agree on. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    refine (Cert.ReferenceIdeal.Read.val_main_v52_eq m' c).trans ?_
    refine (Cert.ReferenceIdeal.RefValue.out_eq _ _ _ _ _ _ _).trans ?_
    obtain ⟨a0, a1, a2, a3, a4, a5, a6⟩ := hagree c
    rw [a0, a1, a2, a3, a4, a5, a6]
  · refine (h c).2.1.trans ?_
    refine (Cert.ReferenceIdeal.Read.val_main_v44_eq _ _ _ _ _ _ _).trans ?_
    refine (Cert.ReferenceIdeal.RefValue.memory_eq _ _ _ _ _ _ _).trans ?_
    obtain ⟨a0, a1, a2, a3, a4, a5, a6⟩ := hagree c
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
